-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩
abbrev S65536 : Shape := ⟨1, ![65536]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S65536x1024_S65536_d1 : S65536x1024.ReducesTo [1] S65536
  reducesTo_S65536_S_d0 : S65536.ReducesTo [0] S_

variable [Facts]

def fn_part1 {F : FTy → Type} [FloatOps F] (main_v13 : IVec S_ 1) (main_v14 : FVec F S65536 .f32) (main_v15 : FVec F S65536 .f32) : IVec S_ 1 :=
  let main_v16 : IVec S65536 1 := cmpf .ogt main_v14 main_v15
  let main_c_6 : IVec S_ 1 := constantI S_ 1 1#1
  let main_v17 : IVec S_ 1 := (fun x v => Host.reduce IntOp.andi x v reducesTo_S65536_S_d0 h_S_) main_v16 main_c_6
  let main_v18 : IVec S_ 1 := andi main_v13 main_v17
  main_v18

def fn {F : FTy → Type} [FloatOps F] (main_arg0 : FVec F S65536x1024 .f32) (main_arg1 : FVec F S1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_cst_4 : FVec F S_ .f32 := constant S_ .f32 0xFF800000#32
  let main_v14 : FVec F S65536 .f32 := (fun x v => Host.reduce FloatOps.maximumf x v reducesTo_S65536x1024_S65536_d1 h_S_) main_arg0 main_cst_4
  let main_cst_5 : FVec F S_ .f32 := constant S_ .f32 0x7F800000#32
  let main_v15 : FVec F S65536 .f32 := (fun x v => Host.reduce FloatOps.minimumf x v reducesTo_S65536x1024_S65536_d1 h_S_) main_arg0 main_cst_5
  fn_part1 (F := F) main_v13 main_v14 main_v15
-- ==== Kernel.lean ====
abbrev S65536x1024 : Shape := ⟨2, ![65536, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .i32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.Spec.lean ====
/-
  Row normalisation followed by a diagonal affine map, one entry at a time.

  A row `f` of 1024 extended reals, one of its entries `x`, a weight `w` and a bias `b` go through two formulas.
  `kernelElt`: the centred entry `x - s/1024` (`s` the row's sum) times the reciprocal square root of
  `(q - s * (s/1024)) / 1023` (`q` the sum of the squares), times `w`, plus `b`.
  `refElt`: the centred entry divided by the square root of `(∑ (f k - s/1024)^2) / (1024 - 1)`, times `w`, plus `b`.
  Over the reals the two radicands are one number, the unbiased variance of the row; it is positive exactly when the
  row is not constant, and then a product with `1/√v` is the quotient by `√v`.
-/
import Idealize.ShloMosaic.PureOps.Ideal

noncomputable section

open scoped BigOperators

namespace Cert.ContextNorm

open Idealize.ShloMosaic

/-- The extended real the f32 word of 1024.0 denotes. -/
abbrev c1024 : EReal := Ideal.ofBits .f32 0x44800000#32
/-- The extended real the f32 word of 1023.0 denotes. -/
abbrev c1023 : EReal := Ideal.ofBits .f32 0x447FC000#32

/-- One entry by the single-pass formula: sums of the row and of its squares, a reciprocal square root. -/
def kernelElt (f : Fin 1024 → EReal) (x w b : EReal) : EReal :=
  (x - Ideal.div (∑ k, f k) c1024)
      * Ideal.rsqrt (Ideal.div ((∑ k, f k * f k) - (∑ k, f k) * Ideal.div (∑ k, f k) c1024) c1023)
      * w + b

/-- One entry by the two-pass formula: the mean, the centred squares' sum over `1024 - 1`, a square root, a quotient. -/
def refElt (f : Fin 1024 → EReal) (x w b : EReal) : EReal :=
  Ideal.div (x - Ideal.div (∑ k, f k) c1024)
      (Ideal.sqrt (Ideal.div
        (∑ k, (f k - Ideal.div (∑ k', f k') c1024) * (f k - Ideal.div (∑ k', f k') c1024)) (c1024 - 1)))
      * w + b

end Cert.ContextNorm

end
-- ==== Proof.SpecArray.lean ====
/-
  The two formulas of Spec.lean applied to whole arrays: entry `(r, j)` of the result is the formula of row `r` of X,
  the entry `X[r, j]`, weight `j` and bias `j`.
-/
import proofs.«123261_j45191645888570_2_alg».proof.Proof.Spec
import Idealize.ShloMosaic.Lib.ValueIdx

noncomputable section

namespace Cert.ContextNorm

open Idealize.ShloMosaic Idealize.ShloMosaic.ValueIdx

/-- The shape of X and of the result. -/
abbrev SX : Shape := ⟨2, ![65536, 1024]⟩
/-- The shape of the weights and of the bias. -/
abbrev SV : Shape := ⟨1, ![1024]⟩

/-- An index's row. -/
def rowOf (i : SX.Idx) : Fin 65536 := ⟨(i 0).val, idx2_lt0 i⟩
/-- An index's column. -/
def colOf (i : SX.Idx) : Fin 1024 := ⟨(i 1).val, idx2_lt1 i⟩

theorem rowOf_ix2 (r : Fin 65536) (j : Fin 1024) : rowOf (ix2 r j) = r := rfl
theorem colOf_ix2 (r : Fin 65536) (j : Fin 1024) : colOf (ix2 r j) = j := rfl
theorem ix2_rowOf_colOf (i : SX.Idx) : ix2 (rowOf i) (colOf i) = i := by
  funext a; apply Fin.ext
  match a with
  | ⟨0, _⟩ => rfl
  | ⟨1, _⟩ => rfl

/-- The single-pass formula on every entry. -/
def kernelArr (X : SX.Idx → EReal) (w b : SV.Idx → EReal) : SX.Idx → EReal :=
  fun i => kernelElt (fun k => X (ix2 (rowOf i) k)) (X i) (w (ix1 (colOf i))) (b (ix1 (colOf i)))

/-- The two-pass formula on every entry. -/
def refArr (X : SX.Idx → EReal) (w b : SV.Idx → EReal) : SX.Idx → EReal :=
  fun i => refElt (fun k => X (ix2 (rowOf i) k)) (X i) (w (ix1 (colOf i))) (b (ix1 (colOf i)))

end Cert.ContextNorm

end
-- ==== Proof.KernelValue.lean ====
/-
  What the kernel leaves in its result array, at the ideal values.

  The grid has 64 points; point `t` stages rows `1024 t … 1024 t + 1023` of X (all 1024 columns), the one row of the
  weights and the one row of the bias, and writes back the same rows of the result. Inside a block, entry `(p, q)`
  depends on row `p` of the block only: the row's sum and the sum of its squares (two lane reductions), then the
  single-pass formula `kernelElt` of that row, the entry, weight `q` and bias `q`. A row of the block is a row of X,
  so the 64 blocks are the restrictions of ONE function of the argument arrays (`G`), and they cover the array.
-/
import proofs.«123261_j45191645888570_2_alg».proof.Proof.Gen.KernelIdeal.Value
import proofs.«123261_j45191645888570_2_alg».proof.Proof.SpecArray
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.ContextNorm
open Idealize.ShloMosaic.Pipeline (Dat)

/-! ## One block -/

/-- A lane sum of a [1024, 1024] block at row `p` is the sum of that row's 1024 entries. -/
theorem rowsum (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The block's index-by-index function at entry `(p, q)`: the single-pass formula of row `p`. -/
theorem E3_ideal (P0 : Vec Ideal S1024x1024 .f32) (P1 P2 : Vec Ideal S1x1024 .f32) (p q : Fin 1024) :
    E3 (F := Ideal) P0 P1 P2 (ix2 p q)
      = kernelElt (fun k => P0 (ix2 p k)) (P0 (ix2 p q)) (P1 (ix2 (0 : Fin 1) q)) (P2 (ix2 (0 : Fin 1) q)) := by
  have e0 : ix3_0 (ix2 p q) = ix2 p q := by
    funext a; apply Fin.ext; match a with | ⟨0, _⟩ => rfl | ⟨1, _⟩ => rfl
  have e1 : ix3_1 (ix2 p q) = ix1 p := by
    funext a; apply Fin.ext; match a with | ⟨0, _⟩ => rfl
  have e2 : ix3_2 (ix2 p q) = ix1 p := by
    funext a; apply Fin.ext; match a with | ⟨0, _⟩ => rfl
  have e3 : ix3_3 (ix2 p q) = ix1 p := by
    funext a; apply Fin.ext; match a with | ⟨0, _⟩ => rfl
  have e4 : ix3_4 (ix2 p q) = ix1 p := by
    funext a; apply Fin.ext; match a with | ⟨0, _⟩ => rfl
  have e5 : ix3_5 (ix2 p q) = ix2 (0 : Fin 1) q := by
    funext a; apply Fin.ext; match a with | ⟨0, _⟩ => rfl | ⟨1, _⟩ => rfl
  have e6 : ix3_6 (ix2 p q) = ix2 (0 : Fin 1) q := by
    funext a; apply Fin.ext; match a with | ⟨0, _⟩ => rfl | ⟨1, _⟩ => rfl
  have s1 := rowsum P0 reduces_S1024x1024_S1024 (.inl rfl) rfl p
  have s2 := rowsum (mulf P0 P0) reduces_S1024x1024_S1024 (.inl rfl) rfl p
  unfold kernelElt
  dsimp only [E3]
  rw [e0, e1, e2, e3, e4, e5, e6, s1, s2]
  rfl

/-- What the body leaves in the output block, at entry `(p, q)`, from the three input blocks: the formula of row `p` of
    the X block, weight `q` and bias `q` of the two one-row blocks. -/
theorem out_eq (x0 : Vec Ideal S1024x1024 .f32) (x1 x2 : Vec Ideal S1x1024 .f32) (p q : Fin 1024) :
    out0_3 x0 x1 x2 (ix2 p q)
      = kernelElt (fun k => x0 (ix2 p k)) (x0 (ix2 p q)) (x1 (ix2 (0 : Fin 1) q)) (x2 (ix2 (0 : Fin 1) q)) := by
  have hz : (![0, 0] : Fin 2 → Nat) = fun _ => 0 := funext fun a => by fin_cases a <;> rfl
  unfold out0_3
  rw [View.ld_unit_zero (S := S1024x1024) hz, View.ld_unit_zero (S := S1x1024) hz, View.ld_unit_zero (S := S1x1024) hz]
  exact (canon3_eq x0 x1 x2 (ix2 p q)).trans (E3_ideal x0 x1 x2 p q)

/-! ## The blocks are restrictions of one function -/

variable (m : (ℓ : Loc nD τ sig) → Buf (Elt Ideal) ℓ) (ρ : Dev nD → PrngReg)

/-- The result array as one function of the arrays the region finds: X, and the weights and the bias as one-row matrices. -/
def G (X : S65536x1024.Idx → EReal) (W B : S1x1024.Idx → EReal) : S65536x1024.Idx → EReal :=
  fun i => kernelElt (fun k => X (ix2 (rowOf i) k)) (X i) (W (ix2 (0 : Fin 1) (colOf i))) (B (ix2 (0 : Fin 1) (colOf i)))

/-- The printed index maps over the 64 grid points: X's and the result's blocks move together down the rows, at
    column block 0; the weights' and the bias' block is always block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 ∧ win0_3.index t (1 : Fin 2) = 0 :=
  (by decide +kernel : ∀ t : Fin grid0.N, _)

/-- Every row block is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- WHAT POINT `t` WRITES BACK is block `t` of `G` of the arrays as the region finds them. -/
theorem flushed_eq (c : Dev nD) (t : Fin cfg0.N) :
    (dats m 0 c).flushed 3 t
      = ((cfg0.win 3).blk t).view.read (Elt Ideal) (G (V m c main_arg0) (V m c main_v0) (V m c main_v1)) := by
  rw [Value.flushed3]
  funext j
  obtain ⟨p, q, rfl⟩ : ∃ (p q : Fin 1024), j = ix2 p q := ⟨j 0, j 1, eq_ix2 j⟩
  obtain ⟨e0, e1, e2, e3, e4, e5, e6, e7⟩ := idx_facts t
  show out0_3 (iblk m c 0 t) (iblk m c 1 t) (iblk m c 2 t) (ix2 p q)
      = G (V m c main_arg0) (V m c main_v0) (V m c main_v1) (((cfg0.win 3).blk t).view.emb (ix2 p q))
  refine (out_eq (iblk m c 0 t) (iblk m c 1 t) (iblk m c 2 t) p q).trans ?_
  unfold G
  have hX : ∀ k : Fin 1024, iblk m c 0 t (ix2 p k)
      = V m c main_arg0 (ix2 (rowOf (((cfg0.win 3).blk t).view.emb (ix2 p q))) k) := fun k => by
    show V m c main_arg0 (((cfg0.win 0).blk t).view.emb (ix2 p k)) = _
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  have hx : iblk m c 0 t (ix2 p q) = V m c main_arg0 (((cfg0.win 3).blk t).view.emb (ix2 p q)) := by
    show V m c main_arg0 (((cfg0.win 0).blk t).view.emb (ix2 p q)) = _
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * q.val = win0_3.index t (1 : Fin 2) * 1024 + 1 * q.val; omega
  have hW : iblk m c 1 t (ix2 (0 : Fin 1) q)
      = V m c main_v0 (ix2 (0 : Fin 1) (colOf (((cfg0.win 3).blk t).view.emb (ix2 p q)))) := by
    show V m c main_v0 (((cfg0.win 1).blk t).view.emb (ix2 (0 : Fin 1) q)) = _
    refine congrArg _ (funext fun a => Fin.ext ?_)
    match a with
    | ⟨0, _⟩ => show win0_1.index t (0 : Fin 2) * 1 + 1 * 0 = 0; omega
    | ⟨1, _⟩ => show win0_1.index t (1 : Fin 2) * 1024 + 1 * q.val = win0_3.index t (1 : Fin 2) * 1024 + 1 * q.val; omega
  have hB : iblk m c 2 t (ix2 (0 : Fin 1) q)
      = V m c main_v1 (ix2 (0 : Fin 1) (colOf (((cfg0.win 3).blk t).view.emb (ix2 p q)))) := by
    show V m c main_v1 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  exact congr (congr (congr (congrArg kernelElt (funext hX)) hx) hW) hB

/-- An index of the array is in point `t`'s block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Row `r` lies in the block of point `r / 1024`: the 64 blocks cover the array. -/
theorem cover (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY after the run is `G` of the arrays as the region finds them. -/
theorem final (c : Dev nD) :
    (dats m 0 c).arrAt 3 cfg0.N = G (V m c main_arg0) (V m c main_v0) (V m c main_v1) :=
  (dats m 0 c).arrAt_eq_of_cover 3 (G (V m c main_arg0) (V m c main_v0) (V m c main_v1))
    (fun t _ => flushed_eq m c t) cover

/-! ## From the arrays the region finds to the arguments -/

/-- The weights as the region finds them: the vector of 1024 entries cast to a one-row matrix. -/
theorem V_v0 (c : Dev nD) :
    (V m c main_v0 : S1x1024.Idx → EReal) = shapeCast S1x1024 (m ((c : Thread nD τ).loc main_arg1)) shapeCasts_S1024_S1x1024 := by
  dsimp only [Gen.V, Gen.hostOps0]; after_results; rfl

/-- The bias as the region finds it: the vector of 1024 entries cast to a one-row matrix. -/
theorem V_v1 (c : Dev nD) :
    (V m c main_v1 : S1x1024.Idx → EReal) = shapeCast S1x1024 (m ((c : Thread nD τ).loc main_arg2)) shapeCasts_S1024_S1x1024 := by
  dsimp only [Gen.V, Gen.hostOps0]; after_results; rfl

/-- Entry `(0, q)` of a vector cast to one row is entry `q`. -/
theorem castRow (v : S1024.Idx → EReal) (q : Fin 1024) :
    shapeCast S1x1024 v shapeCasts_S1024_S1x1024 (ix2 (0 : Fin 1) q) = v (ix1 q) :=
  shapeCast_apply v _ (ix2 (0 : Fin 1) q) (ix1 q)
    (by rw [Shape.rowMajor_val_one, Shape.rowMajor_val_two]; show q.val = 0 * 1024 + q.val; omega)

/-- `G` of the arrays the region finds is the single-pass formula on every entry of the three arguments. -/
theorem G_eq (c : Dev nD) :
    G (V m c main_arg0) (V m c main_v0) (V m c main_v1)
      = kernelArr (m ((c : Thread nD τ).loc main_arg0)) (m ((c : Thread nD τ).loc main_arg1)) (m ((c : Thread nD τ).loc main_arg2)) := by
  funext i
  unfold G kernelArr
  rw [V_main_arg0, V_v0, V_v1, castRow, castRow]

/-- The frame run re-posted: the result array at the single-pass formula of the arguments, the arguments unchanged. -/
theorem run : θ_run defs (onTc (τ := τ) (main (F := Ideal))) ⟨m, fun _ => 0, ρ⟩ fun r => ∀ c : Dev nD,
      r.2.mem ((c : Thread nD τ).loc main_v2)
          = kernelArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (G_eq m c)), (h c).2⟩)
    (Value.run_blocks m ρ)

end Cert.KernelIdeal.KValue

end
-- ==== Proof.RefTerm.lean ====
/-
  The reference's result as one term of its three arguments: the operations of its @main and of the three functions it
  calls, composed in order. `meanCol` is the column of row means (row sum over 1024); `varCol` the column of the
  centred squares' row sums over `1024 - ddof`, selected against a NaN word by the test `1024 - ddof > 0`;
  `refTerm` divides the centred array by the square root of that column, scales the columns by the weights and adds the bias.
-/
import proofs.«123261_j45191645888570_2_alg».proof.ReferenceIdeal

noncomputable section

namespace Cert.ReferenceIdeal.RefValue

open Cert.ReferenceIdeal Cert.ReferenceIdeal.Facts₀ Idealize.ShloMosaic

variable {F : FTy → Type} [FloatOps F] [Cert.ReferenceIdeal.Facts]

/-- The column of row means: each row's sum from the zero word, over the word of 1024.0. -/
def meanCol (X : FVec F S65536x1024 .f32) : FVec F S65536x1 .f32 :=
  Host.divf
    (broadcastInDim S65536x1 ![0] bcast_S65536_S65536x1_0
      (Host.reduceAdd X (constant S_ .f32 0x00000000#32) reducesTo_S65536x1024_S65536_d1 h_S_))
    (broadcastInDim S65536x1 ![] bcast_S_S65536x1 (constant S_ .f32 0x44800000#32))

/-- The array minus its row means. -/
def centred (X : FVec F S65536x1024 .f32) : FVec F S65536x1024 .f32 :=
  subf X (broadcastInDim S65536x1024 ![0, 1] bcast_S65536x1_S65536x1024_0_1 (meanCol X))

/-- The divisor `1024 - ddof` as a scalar. -/
def normalizer (ddof : IVec S_ 32) : FVec F S_ .f32 :=
  subf (constant S_ .f32 0x44800000#32) (sitofp .f32 ddof)

/-- The column of row variances: the centred squares' row sums over the divisor where the divisor is positive,
    the NaN word elsewhere. -/
def varCol (X : FVec F S65536x1024 .f32) (ddof : IVec S_ 32) : FVec F S65536x1 .f32 :=
  select (broadcastInDim S65536x1 ![] bcast_S_S65536x1 (cmpf .ogt (normalizer (F := F) ddof) (constant S_ .f32 0x00000000#32)))
    (Host.divf
      (broadcastInDim S65536x1 ![0] bcast_S65536_S65536x1_0
        (Host.reduceAdd (mulf (centred X) (centred X)) (constant S_ .f32 0x00000000#32) reducesTo_S65536x1024_S65536_d1 h_S_))
      (broadcastInDim S65536x1 ![] bcast_S_S65536x1 (normalizer (F := F) ddof)))
    (broadcastInDim S65536x1 ![] bcast_S_S65536x1 (id (constant S_ .f32 0x7FC00000#32)))

/-- The reference's result. -/
def refTerm (X : FVec F S65536x1024 .f32) (w b : FVec F S1024 .f32) : FVec F S65536x1024 .f32 :=
  addf
    (mulf
      (Host.divf (centred X)
        (broadcastInDim S65536x1024 ![0, 1] bcast_S65536x1_S65536x1024_0_1 (Host.sqrt (varCol X (constantI S_ 32 1#32)))))
      (broadcastInDim S65536x1024 ![0, 1] bcast_S1x1024_S65536x1024_0_1 (broadcastInDim S1x1024 ![1] bcast_S1024_S1x1024_1 w)))
    (broadcastInDim S65536x1024 ![0, 1] bcast_S1x1024_S65536x1024_0_1 (broadcastInDim S1x1024 ![1] bcast_S1024_S1x1024_1 b))

end Cert.ReferenceIdeal.RefValue

end
-- ==== Proof.RefRun.lean ====
/-
  The reference program's run. Its @main calls a function that calls a function that calls a function; with the three
  bodies put in place of their calls the program is one straight line of forty-one host operations, each writing a
  buffer of its own: the seven before the call (the row sums from zero, their column, the word of 1024.0 and its
  column, the column of row means, the integer one), the twenty of the variance's body (the row means again, the
  centred array, its squares, the divisor 1024 minus the integer argument, the squares' row sums over the divisor,
  the test that the divisor is positive, the NaN word), the three of the selection (the NaN word at its own type, its
  column, the choice between the quotient column and it), the square root, and the ten after the call (the centred
  array, its quotient by the root's broadcast, the product with the weights' broadcast, the sum with the bias's).
  Every weakly fair execution of such a line terminates with each buffer at the fold of the operations' results over
  the launch contents; read at the result buffer the fold is `refTerm` of the three arguments, and no operation
  writes an argument.
-/
import proofs.«123261_j45191645888570_2_alg».proof.Proof.RefTerm
import proofs.«123261_j45191645888570_2_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.RefValue Idealize.ShloMosaic Idealize.ShloMosaic.TcCoe
  Idealize.SL.Sem Idealize.ShloMosaic.StableHlo

variable {F : FTy → Type} [FloatOps F] [Cert.ReferenceIdeal.Facts]

/-- The program's forty-one operations in execution order, the three called bodies in place of their calls: each
    body's operations over the buffers its call names. -/
abbrev ops : List (HloOp τ sig (Elt F)) :=
  [ -- @main, before the call
    nullary main_cst (constant S_ .f32 0x00000000#32),
    binary main_arg0 main_cst main_v0 ((fun x v => Host.reduceAdd x v reducesTo_S65536x1024_S65536_d1 h_S_) : (⟨S65536x1024, .f32⟩ : BufTy).Contents (Elt F) → (⟨S_, .f32⟩ : BufTy).Contents (Elt F) → (⟨S65536, .f32⟩ : BufTy).Contents (Elt F)),
    unary main_v0 main_v1 (broadcastInDim S65536x1 ![0] bcast_S65536_S65536x1_0 : (⟨S65536, .f32⟩ : BufTy).Contents (Elt F) → (⟨S65536x1, .f32⟩ : BufTy).Contents (Elt F)),
    nullary main_cst_0 (constant S_ .f32 0x44800000#32),
    unary main_cst_0 main_v2 (broadcastInDim S65536x1 ![] bcast_S_S65536x1 : (⟨S_, .f32⟩ : BufTy).Contents (Elt F) → (⟨S65536x1, .f32⟩ : BufTy).Contents (Elt F)),
    binary main_v1 main_v2 main_v3 (Host.divf : (⟨S65536x1, .f32⟩ : BufTy).Contents (Elt F) → (⟨S65536x1, .f32⟩ : BufTy).Contents (Elt F) → (⟨S65536x1, .f32⟩ : BufTy).Contents (Elt F)),
    nullary main_c (constantI S_ 32 1#32),
    -- the variance's body
    TRef.nullary main_call0.call0.cst (constant S_ .f32 0x00000000#32),
    TRef.binary (.of main_arg0) main_call0.call0.cst main_call0.call0.v0 (fun x v => Host.reduceAdd x v reducesTo_S65536x1024_S65536_d1 h_S_),
    TRef.unary main_call0.call0.v0 main_call0.call0.v1 (broadcastInDim S65536x1 ![0] bcast_S65536_S65536x1_0),
    TRef.nullary main_call0.call0.cst_0 (constant S_ .f32 0x44800000#32),
    TRef.unary main_call0.call0.cst_0 main_call0.call0.v2 (broadcastInDim S65536x1 ![] bcast_S_S65536x1),
    TRef.binary main_call0.call0.v1 main_call0.call0.v2 main_call0.call0.v3 Host.divf,
    TRef.unary main_call0.call0.v3 main_call0.call0.v4 (broadcastInDim S65536x1024 ![0, 1] bcast_S65536x1_S65536x1024_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x44800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S65536x1024_S65536_d1 h_S_),
    TRef.unary main_call0.call0.v9 main_call0.call0.v10 (broadcastInDim S65536x1 ![0] bcast_S65536_S65536x1_0),
    TRef.unary main_call0.call0.v8 main_call0.call0.v11 (broadcastInDim S65536x1 ![] bcast_S_S65536x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    -- the selection's body
    TRef.unary main_call0.call0.cst_4 main_call0.call0.call0.v0 id,
    TRef.unary main_call0.call0.call0.v0 main_call0.call0.call0.v1 (broadcastInDim S65536x1 ![] bcast_S_S65536x1),
    TRef.ternary main_call0.call0.v13 main_call0.call0.v12 main_call0.call0.call0.v1 main_call0.call0.call0.v2 (fun p a b => select (broadcastInDim S65536x1 ![] bcast_S_S65536x1 p) a b),
    -- the square root
    TRef.unary main_call0.call0.call0.v2 main_call0.v1 Host.sqrt,
    -- @main, after the call
    unary main_v3 main_v5 (broadcastInDim S65536x1024 ![0, 1] bcast_S65536x1_S65536x1024_0_1 : (⟨S65536x1, .f32⟩ : BufTy).Contents (Elt F) → (⟨S65536x1024, .f32⟩ : BufTy).Contents (Elt F)),
    binary main_arg0 main_v5 main_v6 (subf : (⟨S65536x1024, .f32⟩ : BufTy).Contents (Elt F) → (⟨S65536x1024, .f32⟩ : BufTy).Contents (Elt F) → (⟨S65536x1024, .f32⟩ : BufTy).Contents (Elt F)),
    unary main_v4 main_v7 (broadcastInDim S65536x1024 ![0, 1] bcast_S65536x1_S65536x1024_0_1 : (⟨S65536x1, .f32⟩ : BufTy).Contents (Elt F) → (⟨S65536x1024, .f32⟩ : BufTy).Contents (Elt F)),
    binary main_v6 main_v7 main_v8 (Host.divf : (⟨S65536x1024, .f32⟩ : BufTy).Contents (Elt F) → (⟨S65536x1024, .f32⟩ : BufTy).Contents (Elt F) → (⟨S65536x1024, .f32⟩ : BufTy).Contents (Elt F)),
    unary main_arg1 main_v9 (broadcastInDim S1x1024 ![1] bcast_S1024_S1x1024_1 : (⟨S1024, .f32⟩ : BufTy).Contents (Elt F) → (⟨S1x1024, .f32⟩ : BufTy).Contents (Elt F)),
    unary main_v9 main_v10 (broadcastInDim S65536x1024 ![0, 1] bcast_S1x1024_S65536x1024_0_1 : (⟨S1x1024, .f32⟩ : BufTy).Contents (Elt F) → (⟨S65536x1024, .f32⟩ : BufTy).Contents (Elt F)),
    binary main_v8 main_v10 main_v11 (mulf : (⟨S65536x1024, .f32⟩ : BufTy).Contents (Elt F) → (⟨S65536x1024, .f32⟩ : BufTy).Contents (Elt F) → (⟨S65536x1024, .f32⟩ : BufTy).Contents (Elt F)),
    unary main_arg2 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S65536x1024 ![0, 1] bcast_S1x1024_S65536x1024_0_1 : (⟨S1x1024, .f32⟩ : BufTy).Contents (Elt F) → (⟨S65536x1024, .f32⟩ : BufTy).Contents (Elt F)),
    binary main_v11 main_v13 main_v14 (addf : (⟨S65536x1024, .f32⟩ : BufTy).Contents (Elt F) → (⟨S65536x1024, .f32⟩ : BufTy).Contents (Elt F) → (⟨S65536x1024, .f32⟩ : BufTy).Contents (Elt F)) ]

-- forty-one binds re-associated: the rewrite under the chain recurses once per statement
set_option maxRecDepth 1024 in
/-- @main is that straight line: the three bodies unfolded at their calls and the records at their fields, both sides
    are one chain of host steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub ..,
    unary_bufs_sub ..,
    unary_bufs_sub .., binary_bufs_sub .., unary_bufs_sub .., binary_bufs_sub .., unary_bufs_sub .., unary_bufs_sub .., binary_bufs_sub ..,
    unary_bufs_sub .., unary_bufs_sub .., binary_bufs_sub ..⟩

/-- The fold read at the result buffer: `refTerm` of the three arguments' contents. -/
theorem out_eq (V : Valuation τ sig (Elt F)) :
    after ops V (main_v14 : DevRef τ sig)
      = refTerm (F := F) (V (main_arg0 : DevRef τ sig)) (V (main_arg1 : DevRef τ sig)) (V (main_arg2 : DevRef τ sig)) := by
  after_results_simp
  rfl

/-- No operation writes the first argument. -/
theorem arg0_eq (V : Valuation τ sig (Elt F)) : after ops V (main_arg0 : DevRef τ sig) = V (main_arg0 : DevRef τ sig) := by
  after_results_simp

/-- No operation writes the second argument. -/
theorem arg1_eq (V : Valuation τ sig (Elt F)) : after ops V (main_arg1 : DevRef τ sig) = V (main_arg1 : DevRef τ sig) := by
  after_results_simp

/-- No operation writes the third argument. -/
theorem arg2_eq (V : Valuation τ sig (Elt F)) : after ops V (main_arg2 : DevRef τ sig) = V (main_arg2 : DevRef τ sig) := by
  after_results_simp

/-- Every weakly fair execution of the reference terminates, without a fault, with its result buffer at `refTerm` of
    the three argument arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v14)
          = refTerm (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.Consts.lean ====
/-
  The float words the two programs and the precondition spell, as the extended reals they denote: 1024.0 and 1023.0
  (the row length and the unbiased divisor), +0.0 (the sums' starting value), and the two infinities (the bound of
  the finiteness test, and the starting values of a row's maximum and minimum). Stated once, here.
-/
import Idealize.ShloMosaic.PureOps.Ideal

noncomputable section

namespace Cert.Consts

open Idealize.ShloMosaic

/-- `1024.0` denotes the real 1024. -/
theorem ofBits_1024 : Ideal.ofBits .f32 0x44800000#32 = ((1024 : ℝ) : EReal) := by
  simp [Ideal.ofBits, Ideal.ieee, -EReal.coe_mul]; norm_num

/-- `1023.0` denotes the real 1023. -/
theorem ofBits_1023 : Ideal.ofBits .f32 0x447FC000#32 = ((1023 : ℝ) : EReal) := by
  simp [Ideal.ofBits, Ideal.ieee, -EReal.coe_mul]; norm_num

/-- `+0.0` denotes 0. -/
theorem ofBits_zero : Ideal.ofBits .f32 0x00000000#32 = 0 := by
  simp [Ideal.ofBits, Ideal.ieee]

/-- The word of +inf denotes the top element. -/
theorem ofBits_posinf : Ideal.ofBits .f32 0x7F800000#32 = ⊤ := by
  simp [Ideal.ofBits, Ideal.ieee]

/-- The word of -inf denotes the bottom element. -/
theorem ofBits_neginf : Ideal.ofBits .f32 0xFF800000#32 = ⊥ := by
  simp [Ideal.ofBits, Ideal.ieee]

end Cert.Consts

end
-- ==== Proof.RefRead.lean ====
/-
  The reference's result read at one entry.

  Entry `(r, j)` of `refTerm X w b` depends on row `r` of X, weight `j` and bias `j` only: the row's sum over 1024 is
  its mean; the centred squares' row sum over `1024 - 1` is selected (the test `1024 - 1 > 0` holds) and its square
  root divides the centred entry; the quotient is scaled by the weight and the bias is added. That is `refElt` of the
  row, so the whole result is `refArr`.
-/
import proofs.«123261_j45191645888570_2_alg».proof.Proof.RefTerm
import proofs.«123261_j45191645888570_2_alg».proof.Proof.SpecArray
import proofs.«123261_j45191645888570_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.RefValue Cert.ReferenceIdeal.Facts₀ Idealize.ShloMosaic
open Idealize.ShloMosaic.ValueIdx Cert.ContextNorm

variable [Cert.ReferenceIdeal.Facts]

/-! ## The layout operations at an index -/

/-- A vector of 65536 entries as a column: entry `(r, 0)` is entry `r`. -/
theorem bcastCol (v : S65536.Idx → EReal) (r : Fin 65536) (z : Fin 1) :
    broadcastInDim S65536x1 ![0] bcast_S65536_S65536x1_0 v (ix2 r z) = v (ix1 r) :=
  broadcastInDim_apply _ _ v (ix2 r z) (ix1 r) fun a => by
    match a with
    | ⟨0, _⟩ => show r.val = (if (65536 : Nat) = 1 then 0 else r.val); rw [if_neg (by decide)]

/-- A scalar spread over a column is the scalar. -/
theorem bcastScalar {α : Type} (s : S_.Idx → α) (i : S65536x1.Idx) :
    broadcastInDim S65536x1 ![] bcast_S_S65536x1 s i = s ix0 :=
  broadcastInDim_apply _ _ s i ix0 fun a => a.elim0

/-- A column spread along the rows: entry `(r, j)` is the column's entry `(r, 0)`. -/
theorem bcastRows (col : S65536x1.Idx → EReal) (r : Fin 65536) (j : Fin 1024) :
    broadcastInDim S65536x1024 ![0, 1] bcast_S65536x1_S65536x1024_0_1 col (ix2 r j) = col (ix2 r (0 : Fin 1)) :=
  broadcastInDim_apply _ _ col (ix2 r j) (ix2 r (0 : Fin 1)) fun a => by
    match a with
    | ⟨0, _⟩ => show r.val = (if (65536 : Nat) = 1 then 0 else r.val); rw [if_neg (by decide)]
    | ⟨1, _⟩ => show 0 = (if (1 : Nat) = 1 then 0 else j.val); rw [if_pos rfl]

/-- A vector of 1024 entries as a one-row matrix spread down the rows: entry `(r, j)` is entry `j`. -/
theorem bcastVec (v : S1024.Idx → EReal) (r : Fin 65536) (j : Fin 1024) :
    broadcastInDim S65536x1024 ![0, 1] bcast_S1x1024_S65536x1024_0_1 (broadcastInDim S1x1024 ![1] bcast_S1024_S1x1024_1 v) (ix2 r j)
      = v (ix1 j) := by
  refine (broadcastInDim_apply _ _ _ (ix2 r j) (ix2 (0 : Fin 1) j) fun a => ?_).trans ?_
  · match a with
    | ⟨0, _⟩ => show 0 = (if (1 : Nat) = 1 then 0 else r.val); rw [if_pos rfl]
    | ⟨1, _⟩ => show j.val = (if (1024 : Nat) = 1 then 0 else j.val); rw [if_neg (by decide)]
  · exact broadcastInDim_apply _ _ v (ix2 (0 : Fin 1) j) (ix1 j) fun a => by
      match a with
      | ⟨0, _⟩ => show j.val = (if (1024 : Nat) = 1 then 0 else j.val); rw [if_neg (by decide)]

/-- A row sum from the zero word: the sum of the row's 1024 entries. -/
theorem rowsum (x : FVec Ideal S65536x1024 .f32) (r : Fin 65536) :
    Host.reduceAdd (F := Ideal) x (constant S_ .f32 0x00000000#32) reducesTo_S65536x1024_S65536_d1 h_S_ (ix1 r)
      = ∑ k : Fin 1024, x (ix2 r k) := by
  have hR : S65536x1024.Reduces [1] S65536 := by decide
  show Ideal.hostReduceAdd reducesTo_S65536x1024_S65536_d1 x (Ideal.ofBits .f32 0x00000000#32) (ix1 r) = _
  rw [Ideal.hostReduceAdd_single reducesTo_S65536x1024_S65536_d1 hR, Cert.Consts.ofBits_zero, zero_add]
  refine Finset.sum_congr rfl fun k _ => congrArg x ?_
  funext a; apply Fin.ext
  match a with
  | ⟨0, _⟩ => rfl
  | ⟨1, _⟩ => rfl

/-! ## The stages at an index -/

/-- The mean of row `r`. -/
theorem meanCol_apply (X : FVec Ideal S65536x1024 .f32) (r : Fin 65536) (z : Fin 1) :
    meanCol (F := Ideal) X (ix2 r z) = Ideal.div (∑ k : Fin 1024, X (ix2 r k)) c1024 := by
  unfold meanCol
  show Ideal.div (broadcastInDim S65536x1 ![0] bcast_S65536_S65536x1_0
        (Host.reduceAdd (F := Ideal) X (constant S_ .f32 0x00000000#32) reducesTo_S65536x1024_S65536_d1 h_S_) (ix2 r z))
      (broadcastInDim S65536x1 ![] bcast_S_S65536x1 (constant (F := Ideal) S_ .f32 0x44800000#32) (ix2 r z)) = _
  rw [bcastCol, rowsum, bcastScalar]
  rfl

/-- The centred entry `(r, j)`. -/
theorem centred_apply (X : FVec Ideal S65536x1024 .f32) (r : Fin 65536) (j : Fin 1024) :
    centred (F := Ideal) X (ix2 r j) = X (ix2 r j) - Ideal.div (∑ k : Fin 1024, X (ix2 r k)) c1024 := by
  unfold centred
  show X (ix2 r j) - broadcastInDim S65536x1024 ![0, 1] bcast_S65536x1_S65536x1024_0_1 (meanCol (F := Ideal) X) (ix2 r j) = _
  rw [bcastRows, meanCol_apply]

/-- The divisor: `1024 - 1`. -/
theorem normalizer_apply (i : S_.Idx) : normalizer (F := Ideal) (constantI S_ 32 1#32) i = c1024 - 1 := by
  have h1 : (1#32 : BitVec 32).toInt = 1 := by decide
  show Ideal.ofBits .f32 0x44800000#32 - (((1#32 : BitVec 32).toInt : ℝ) : EReal) = _
  rw [h1, Int.cast_one, EReal.coe_one]

/-- The variance of row `r`: the divisor is positive, so the selection keeps the quotient. -/
theorem varCol_apply (X : FVec Ideal S65536x1024 .f32) (r : Fin 65536) (z : Fin 1) :
    varCol (F := Ideal) X (constantI S_ 32 1#32) (ix2 r z)
      = Ideal.div (∑ k : Fin 1024, (X (ix2 r k) - Ideal.div (∑ k' : Fin 1024, X (ix2 r k')) c1024)
            * (X (ix2 r k) - Ideal.div (∑ k' : Fin 1024, X (ix2 r k')) c1024)) (c1024 - 1) := by
  have hone : c1024 - 1 = ((1023 : ℝ) : EReal) := by
    show Ideal.ofBits .f32 0x44800000#32 - 1 = _
    rw [Cert.Consts.ofBits_1024, ← EReal.coe_one, ← EReal.coe_sub]; norm_num
  have hc : broadcastInDim S65536x1 ![] bcast_S_S65536x1
      (cmpf .ogt (normalizer (F := Ideal) (constantI S_ 32 1#32)) (constant S_ .f32 0x00000000#32)) (ix2 r z) = 1#1 := by
    rw [bcastScalar]
    show Ideal.cmp .ogt (normalizer (F := Ideal) (constantI S_ 32 1#32) ix0) (Ideal.ofBits .f32 0x00000000#32) = 1#1
    rw [normalizer_apply, Cert.Consts.ofBits_zero, hone]
    have hpos : (0 : EReal) < ((1023 : ℝ) : EReal) := by exact_mod_cast (by norm_num : (0 : ℝ) < 1023)
    simp [Ideal.cmp, hpos]
  unfold varCol
  rw [select_apply, hc, select_one]
  show Ideal.div (broadcastInDim S65536x1 ![0] bcast_S65536_S65536x1_0
        (Host.reduceAdd (F := Ideal) (mulf (centred X) (centred X)) (constant S_ .f32 0x00000000#32) reducesTo_S65536x1024_S65536_d1 h_S_) (ix2 r z))
      (broadcastInDim S65536x1 ![] bcast_S_S65536x1 (normalizer (F := Ideal) (constantI S_ 32 1#32)) (ix2 r z)) = _
  rw [bcastCol, rowsum, bcastScalar, normalizer_apply]
  refine congrArg (fun s => Ideal.div s (c1024 - 1)) (Finset.sum_congr rfl fun k _ => ?_)
  show centred (F := Ideal) X (ix2 r k) * centred (F := Ideal) X (ix2 r k) = _
  rw [centred_apply]

/-- Entry `(r, j)` of the reference's result is the two-pass formula of row `r`. -/
theorem refTerm_apply (X : FVec Ideal S65536x1024 .f32) (w b : FVec Ideal S1024 .f32) (r : Fin 65536) (j : Fin 1024) :
    refTerm (F := Ideal) X w b (ix2 r j)
      = refElt (fun k => X (ix2 r k)) (X (ix2 r j)) (w (ix1 j)) (b (ix1 j)) := by
  unfold refTerm refElt
  show Ideal.div (centred (F := Ideal) X (ix2 r j))
          (broadcastInDim S65536x1024 ![0, 1] bcast_S65536x1_S65536x1024_0_1
            (Host.sqrt (varCol (F := Ideal) X (constantI S_ 32 1#32))) (ix2 r j))
        * broadcastInDim S65536x1024 ![0, 1] bcast_S1x1024_S65536x1024_0_1 (broadcastInDim S1x1024 ![1] bcast_S1024_S1x1024_1 w) (ix2 r j)
        + broadcastInDim S65536x1024 ![0, 1] bcast_S1x1024_S65536x1024_0_1 (broadcastInDim S1x1024 ![1] bcast_S1024_S1x1024_1 b) (ix2 r j) = _
  rw [centred_apply, bcastRows, bcastVec, bcastVec]
  show Ideal.div _ (Ideal.sqrt (varCol (F := Ideal) X (constantI S_ 32 1#32) (ix2 r (0 : Fin 1)))) * _ + _ = _
  rw [varCol_apply]

/-- The reference's result is the two-pass formula on every entry. -/
theorem refTerm_eq (X : FVec Ideal S65536x1024 .f32) (w b : FVec Ideal S1024 .f32) :
    refTerm (F := Ideal) X w b = refArr X w b := by
  funext i
  obtain ⟨r, j, rfl⟩ : ∃ (r : Fin 65536) (j : Fin 1024), i = ix2 r j := ⟨i 0, i 1, eq_ix2 i⟩
  exact refTerm_apply X w b r j

end Cert.ReferenceIdeal.RefRead

end
-- ==== Proof.Law.lean ====
/-
  The real-number law behind the two formulas of Spec.lean.

  On a row of reals the sums, products, differences and quotients by the nonzero constants 1024 and 1023 all stay
  real, so each formula is the image in the extended reals of one real expression. With `s` the row's sum,
  `μ = s / 1024` its mean and `q` the sum of its squares, expanding the square gives
  `∑ (f k - μ)^2 = q - 2 μ s + 1024 μ^2 = q - s μ`, so the two radicands are the same real `v`, the unbiased
  variance. A sum of squares is nonnegative, and it is positive as soon as one entry differs from the mean, which a
  non-constant row guarantees. For `v > 0` the reciprocal square root is `(√v)⁻¹`, the square root is `√v ≠ 0`, and the
  quotient by `√v` is the product with `(√v)⁻¹`: both formulas denote `(x - μ) * (√v)⁻¹ * w + b`.
-/
import proofs.«123261_j45191645888570_2_alg».proof.Proof.Spec
import proofs.«123261_j45191645888570_2_alg».proof.Proof.Consts

noncomputable section

open scoped BigOperators

namespace Cert.ContextNorm

open Idealize.ShloMosaic

/-- The word of 1024.0: sign 0, exponent 137, fraction 0, that is `2^23 * 2^(137 - 127 - 23) = 2^10`. -/
theorem c1024_eq : c1024 = ((1024 : ℝ) : EReal) := Cert.Consts.ofBits_1024

/-- The word of 1023.0: sign 0, exponent 136, fraction `0x7FC000`, that is `(2^23 + 0x7FC000) * 2^(136 - 127 - 23)`. -/
theorem c1023_eq : c1023 = ((1023 : ℝ) : EReal) := Cert.Consts.ofBits_1023

/-- A row whose minimum (folded from +∞) is below its maximum (folded from -∞) has two different entries. -/
theorem nonconst_of_fold (f : Fin 1024 → ℝ)
    (h : (Finset.univ : Finset (Fin 1024)).fold min (⊤ : EReal) (fun k => ((f k : ℝ) : EReal))
          < (Finset.univ : Finset (Fin 1024)).fold max (⊥ : EReal) (fun k => ((f k : ℝ) : EReal))) :
    ∃ k k', f k ≠ f k' := by
  by_contra hcon
  -- otherwise every entry is the entry at 0, so the maximum is at most it and the minimum at least it
  have hall : ∀ k, f k = f 0 := fun k => by_contra fun hk => hcon ⟨k, 0, hk⟩
  have hc : ∀ k, ((f k : ℝ) : EReal) = ((f 0 : ℝ) : EReal) := fun k => by rw [hall k]
  have h1 : (Finset.univ : Finset (Fin 1024)).fold max (⊥ : EReal) (fun k => ((f k : ℝ) : EReal))
      ≤ ((f 0 : ℝ) : EReal) :=
    (Finset.fold_max_le _).mpr ⟨bot_le, fun k _ => (hc k).le⟩
  have h2 : ((f 0 : ℝ) : EReal)
      ≤ (Finset.univ : Finset (Fin 1024)).fold min (⊤ : EReal) (fun k => ((f k : ℝ) : EReal)) :=
    (Finset.le_fold_min _).mpr ⟨le_top, fun k _ => (hc k).ge⟩
  exact absurd (lt_of_lt_of_le h h1) (not_lt.mpr h2)

/-- The coercion of a finite sum of reals is the sum of the coercions. -/
private theorem coe_finset_sum {ι : Type} (s : Finset ι) (g : ι → ℝ) :
    ((∑ k ∈ s, g k : ℝ) : EReal) = ∑ k ∈ s, ((g k : ℝ) : EReal) := by
  classical
  induction s using Finset.induction_on with
  | empty => simp
  | insert a s ha ih => rw [Finset.sum_insert ha, Finset.sum_insert ha, EReal.coe_add, ih]

/-- The quotient of two reals, the divisor not zero, is the real quotient. -/
private theorem div_real (x : ℝ) {y : ℝ} (h : y ≠ 0) :
    Ideal.div (x : EReal) (y : EReal) = ((x / y : ℝ) : EReal) := by
  rw [Ideal.div_coe h, ← EReal.coe_mul, mul_one_div]

/-- The sum of the centred squares, expanded: `∑ (f k - s/1024)^2 = q - s * (s/1024)`. -/
private theorem centred_sq_sum (f : Fin 1024 → ℝ) :
    ∑ k, (f k - (∑ k', f k') / 1024) * (f k - (∑ k', f k') / 1024)
      = (∑ k, f k * f k) - (∑ k, f k) * ((∑ k, f k) / 1024) := by
  have hk : ∀ k, (f k - (∑ k', f k') / 1024) * (f k - (∑ k', f k') / 1024)
      = f k * f k - 2 * ((∑ k', f k') / 1024) * f k + ((∑ k', f k') / 1024) * ((∑ k', f k') / 1024) :=
    fun k => by ring
  simp only [hk, Finset.sum_add_distrib, Finset.sum_sub_distrib, ← Finset.mul_sum, Finset.sum_const,
    Finset.card_univ, Fintype.card_fin, nsmul_eq_mul]
  push_cast
  ring

/-- The unbiased variance of a non-constant real row is positive. -/
private theorem var_pos (f : Fin 1024 → ℝ) (hne : ∃ k k', f k ≠ f k') :
    0 < ((∑ k, f k * f k) - (∑ k, f k) * ((∑ k, f k) / 1024)) / 1023 := by
  rw [← centred_sq_sum]
  apply div_pos _ (by norm_num)
  obtain ⟨k, k', hkk⟩ := hne
  -- one of the two different entries differs from the mean
  have hex : ∃ i, f i ≠ (∑ k', f k') / 1024 := by
    by_cases h1 : f k = (∑ k', f k') / 1024
    · exact ⟨k', fun h2 => hkk (h1.trans h2.symm)⟩
    · exact ⟨k, h1⟩
  obtain ⟨i, hi⟩ := hex
  exact Finset.sum_pos' (fun k _ => mul_self_nonneg _)
    ⟨i, Finset.mem_univ i, mul_self_pos.mpr (sub_ne_zero.mpr hi)⟩

/-- The real number both formulas denote on a real row: the centred entry times `(√v)⁻¹`, times the weight, plus
    the bias, `v` the unbiased variance in its single-pass form. -/
private def normElt (f : Fin 1024 → ℝ) (x w b : ℝ) : ℝ :=
  (x - (∑ k, f k) / 1024)
    * (Real.sqrt (((∑ k, f k * f k) - (∑ k, f k) * ((∑ k, f k) / 1024)) / 1023))⁻¹ * w + b

/-- The single-pass formula on a real, non-constant row: every step stays real, and the radicand is positive. -/
private theorem kernelElt_real (f : Fin 1024 → ℝ) (x w b : ℝ) (hne : ∃ k k', f k ≠ f k') :
    kernelElt (fun k => ((f k : ℝ) : EReal)) (x : EReal) (w : EReal) (b : EReal)
      = ((normElt f x w b : ℝ) : EReal) := by
  have hv := var_pos f hne
  have hsq : ∀ k, ((f k : ℝ) : EReal) * ((f k : ℝ) : EReal) = ((f k * f k : ℝ) : EReal) :=
    fun k => (EReal.coe_mul _ _).symm
  simp only [kernelElt, normElt, hsq]
  rw [← coe_finset_sum Finset.univ f, ← coe_finset_sum Finset.univ (fun k => f k * f k), c1024_eq, c1023_eq,
    div_real _ (by norm_num : (1024 : ℝ) ≠ 0), ← EReal.coe_mul, ← EReal.coe_sub, ← EReal.coe_sub,
    div_real _ (by norm_num : (1023 : ℝ) ≠ 0), Ideal.rsqrt_coe, if_neg (not_lt.mpr hv.le), if_neg hv.ne',
    ← EReal.coe_mul, ← EReal.coe_mul, ← EReal.coe_add]

/-- The two-pass formula on a real, non-constant row: the centred squares' sum is the single-pass radicand's
    numerator, `1024 - 1 = 1023`, and the quotient by `√v ≠ 0` is the product with `(√v)⁻¹`. -/
private theorem refElt_real (f : Fin 1024 → ℝ) (x w b : ℝ) (hne : ∃ k k', f k ≠ f k') :
    refElt (fun k => ((f k : ℝ) : EReal)) (x : EReal) (w : EReal) (b : EReal)
      = ((normElt f x w b : ℝ) : EReal) := by
  have hv := var_pos f hne
  have hone : c1024 - 1 = ((1023 : ℝ) : EReal) := by
    rw [c1024_eq, ← EReal.coe_one, ← EReal.coe_sub]; norm_num
  have hsq : ∀ k, (((f k : ℝ) : EReal) - (((∑ k', f k') / 1024 : ℝ) : EReal))
        * (((f k : ℝ) : EReal) - (((∑ k', f k') / 1024 : ℝ) : EReal))
      = (((f k - (∑ k', f k') / 1024) * (f k - (∑ k', f k') / 1024) : ℝ) : EReal) :=
    fun k => by rw [← EReal.coe_sub, ← EReal.coe_mul]
  simp only [refElt, normElt]
  rw [hone, ← coe_finset_sum Finset.univ f, c1024_eq, div_real _ (by norm_num : (1024 : ℝ) ≠ 0)]
  simp only [hsq]
  rw [← coe_finset_sum Finset.univ (fun k => (f k - (∑ k', f k') / 1024) * (f k - (∑ k', f k') / 1024)),
    centred_sq_sum, div_real _ (by norm_num : (1023 : ℝ) ≠ 0), Ideal.sqrt_coe, if_neg (not_lt.mpr hv.le),
    ← EReal.coe_sub, div_real _ (Real.sqrt_ne_zero'.mpr hv), ← EReal.coe_mul, ← EReal.coe_add]
  exact congrArg _ (by ring)

/-- On a real, non-constant row the two formulas agree at every entry. -/
theorem law (f : Fin 1024 → ℝ) (j : Fin 1024) (w b : ℝ) (hne : ∃ k k', f k ≠ f k') :
    kernelElt (fun k => ((f k : ℝ) : EReal)) ((f j : ℝ) : EReal) (w : EReal) (b : EReal)
      = refElt (fun k => ((f k : ℝ) : EReal)) ((f j : ℝ) : EReal) (w : EReal) (b : EReal) :=
  (kernelElt_real f (f j) w b hne).trans (refElt_real f (f j) w b hne).symm

end Cert.ContextNorm

end
-- ==== Proof.PreDecode.lean ====
/-
  The precondition, read back at the ideal instance (a float is an extended real).

  The printed precondition is the conjunction of four "all" reductions: |X| < +∞, |w| < +∞, |b| < +∞ elementwise, and,
  for every row of X, (row maximum folded from -∞) > (row minimum folded from +∞).  Where it holds, every entry of the
  three inputs is a real number, and in every row the minimum lies strictly below the maximum.
-/
import proofs.«123261_j45191645888570_2_alg».proof.Pre_finite_inputs
import proofs.«123261_j45191645888570_2_alg».proof.Proof.Consts
import Idealize.ShloMosaic.Lib.ValueIdx
import Idealize.ShloMosaic.Lib.ReduceAll
import Idealize.ShloMosaic.PureOps.Ideal.Laws
import Idealize.ShloMosaic.PureOps.Reduce

namespace Cert.Pre_finite_inputs.Decode

open Idealize.ShloMosaic Idealize.ShloMosaic.ValueIdx

/-- The rank-zero shape has one index. -/
instance : Subsingleton S_.Idx := ⟨fun a b => funext fun d => d.elim0⟩

/-- An extended real whose absolute value max x (-x) lies strictly below +∞ is a real number. -/
theorem real_of_abs_lt_top (x : EReal)
    (h : Ideal.cmp .olt (max x (-x)) (Ideal.ofBits .f32 0x7F800000#32) = 1#1) : ∃ r : ℝ, x = (r : EReal) := by
  rw [Cert.Consts.ofBits_posinf] at h
  induction x using EReal.rec with
  | bot => simp [Ideal.cmp] at h
  | coe r => exact ⟨r, rfl⟩
  | top => simp [Ideal.cmp] at h

/-- A printed "all |x| < +∞" that came out 1 says every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) :=
  real_of_abs_lt_top (x i) (Host.reduce_andi_all _ _ hr hu ix0 e i)

/-- A comparison "greater than" that came out 1 is the strict order. -/
theorem lt_of_cmp_ogt (x y : EReal) (h : Ideal.cmp .ogt x y = 1#1) : y < x := by
  unfold Ideal.cmp at h
  by_contra hn
  simp [hn] at h

/-- The same, for an elementwise comparison of two arrays read at one index. -/
theorem lt_of_cmpf_ogt {s : Shape} (x y : FVec Ideal s .f32) (i : s.Idx) (h : cmpf .ogt x y i = 1#1) : y i < x i :=
  lt_of_cmp_ogt (x i) (y i) h

/-- Row r with column k put back on the reduced axis is the index (r, k). -/
theorem lift_ix2 (h : S65536x1024.Reduces [1] S65536) (r : Fin 65536) (k : Fin 1024) :
    h.lift (ix1 r) k = ix2 r k := by
  funext c; apply Fin.ext
  match c with
  | ⟨0, _⟩ => rfl
  | ⟨1, _⟩ => rfl

/-- The printed row maximum, from -∞, at row r: the fold of max from ⊥ over the row's entries. -/
theorem row_max (X : FVec Ideal S65536x1024 .f32) (h' : S65536x1024.ReducesTo [1] S65536) (hu : 0 < S_.numel)
    (r : Fin 65536) :
    Host.reduce FloatOps.maximumf X (constant S_ .f32 0xFF800000#32) h' hu (ix1 r)
      = (Finset.univ : Finset (Fin 1024)).fold max (⊥ : EReal) (fun k => X (ix2 r k)) := by
  have hR : S65536x1024.Reduces [1] S65536 := by decide
  refine (Host.reduce_eq_fold_single FloatOps.maximumf X _ h' hR hu (ix1 r)).trans ?_
  have hf : (X ∘ hR.lift (ix1 r)) = fun k : Fin 1024 => X (ix2 r k) :=
    funext fun k => congrArg X (lift_ix2 hR r k)
  show (Finset.univ : Finset (Fin 1024)).fold max (Ideal.ofBits .f32 0xFF800000#32) (X ∘ hR.lift (ix1 r)) = _
  rw [Cert.Consts.ofBits_neginf, hf]
  rfl

/-- The printed row minimum, from +∞, at row r: the fold of min from ⊤ over the row's entries. -/
theorem row_min (X : FVec Ideal S65536x1024 .f32) (h' : S65536x1024.ReducesTo [1] S65536) (hu : 0 < S_.numel)
    (r : Fin 65536) :
    Host.reduce FloatOps.minimumf X (constant S_ .f32 0x7F800000#32) h' hu (ix1 r)
      = (Finset.univ : Finset (Fin 1024)).fold min (⊤ : EReal) (fun k => X (ix2 r k)) := by
  have hR : S65536x1024.Reduces [1] S65536 := by decide
  refine (Host.reduce_eq_fold_single FloatOps.minimumf X _ h' hR hu (ix1 r)).trans ?_
  have hf : (X ∘ hR.lift (ix1 r)) = fun k : Fin 1024 => X (ix2 r k) :=
    funext fun k => congrArg X (lift_ix2 hR r k)
  show (Finset.univ : Finset (Fin 1024)).fold min (Ideal.ofBits .f32 0x7F800000#32) (X ∘ hR.lift (ix1 r)) = _
  rw [Cert.Consts.ofBits_posinf, hf]
  rfl

variable [Cert.Pre_finite_inputs.Facts]

/-- Where the precondition holds, every entry of the three inputs is a real number and no row of X is constant:
    its minimum (folded from +∞) lies below its maximum (folded from -∞). -/
theorem decode (X : FVec Ideal Cert.Pre_finite_inputs.S65536x1024 .f32) (w b : FVec Ideal Cert.Pre_finite_inputs.S1024 .f32)
    (h : Cert.Pre_finite_inputs.fn (F := Ideal) X w b = fun _ => 1#1) :
    (∀ i, ∃ x : ℝ, X i = (x : EReal)) ∧ (∀ i, ∃ x : ℝ, w i = (x : EReal)) ∧ (∀ i, ∃ x : ℝ, b i = (x : EReal))
    ∧ ∀ r : Fin 65536,
        (Finset.univ : Finset (Fin 1024)).fold min (⊤ : EReal) (fun k => X (ix2 r k))
          < (Finset.univ : Finset (Fin 1024)).fold max (⊥ : EReal) (fun k => X (ix2 r k)) := by
  have h0 := congrFun h ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  refine ⟨all_real X _ _ _ h3, all_real w _ _ _ h7, all_real b _ _ _ h12, fun r => ?_⟩
  have hr := Host.reduce_andi_all _ _ _ _ ix0 h17 (ix1 r)
  have hlt := lt_of_cmpf_ogt _ _ (ix1 r) hr
  rw [row_max, row_min] at hlt
  exact hlt

end Cert.Pre_finite_inputs.Decode
-- ==== Proof.Bridge.lean ====
/-
  Under the precondition the two array functions are one.

  The precondition gives every entry of X, of the weights and of the bias as a real number, and every row of X a
  minimum strictly below its maximum, hence two different entries. On such a row the single-pass and the two-pass
  formula agree at every entry (the real-number law), so the two results agree entry by entry.
-/
import proofs.«123261_j45191645888570_2_alg».proof.Proof.SpecArray
import proofs.«123261_j45191645888570_2_alg».proof.Proof.Law
import proofs.«123261_j45191645888570_2_alg».proof.Proof.PreDecode

noncomputable section

namespace Cert.ContextNorm

open Idealize.ShloMosaic Idealize.ShloMosaic.ValueIdx

variable [Cert.Pre_finite_inputs.Facts]

/-- Where the precondition holds of `(X, w, b)`, the single-pass result is the two-pass result. -/
theorem arr_eq (X : SX.Idx → EReal) (w b : SV.Idx → EReal)
    (h : Cert.Pre_finite_inputs.fn (F := Ideal) X w b = fun _ => 1#1) : kernelArr X w b = refArr X w b := by
  obtain ⟨hX, hw, hb, hrow⟩ := Cert.Pre_finite_inputs.Decode.decode X w b h
  choose fX hfX using hX
  funext i
  obtain ⟨wr, hwr⟩ := hw (ix1 (colOf i))
  obtain ⟨br, hbr⟩ := hb (ix1 (colOf i))
  have hf : (fun k : Fin 1024 => X (ix2 (rowOf i) k)) = fun k => ((fX (ix2 (rowOf i) k) : ℝ) : EReal) :=
    funext fun k => hfX _
  have hxi : X i = ((fX (ix2 (rowOf i) (colOf i)) : ℝ) : EReal) := by rw [← hfX, ix2_rowOf_colOf]
  have hne : ∃ k k', fX (ix2 (rowOf i) k) ≠ fX (ix2 (rowOf i) k') := by
    refine nonconst_of_fold (fun k => fX (ix2 (rowOf i) k)) ?_
    have hr := hrow (rowOf i)
    rw [hf] at hr
    exact hr
  unfold kernelArr refArr
  rw [hf, hxi, hwr, hbr]
  exact law (fun k => fX (ix2 (rowOf i) k)) (colOf i) wr br hne

end Cert.ContextNorm

end
-- ==== Proof.lean ====
/-
  Row normalisation with a diagonal affine map: the kernel against its jnp reference, over the extended reals.

  Each row of X (1024 entries) is centred by its mean and scaled by the reciprocal of its unbiased standard deviation,
  then every column is scaled by its weight and shifted by its bias. The kernel takes a row's sum `s` and sum of
  squares `q` in one pass and multiplies the centred entry by the reciprocal square root of `(q - s * (s/1024)) / 1023`;
  the reference takes the mean, then the centred squares' sum over `1024 - 1`, a square root, and divides. Over the
  reals the two radicands are the same number, the row's unbiased variance. On a constant row it is zero and the two
  programs part (a product with the reciprocal root of zero against the quotient zero over zero); the precondition
  therefore asks, beside finite inputs, that no row of X be constant, and under it the variance is a positive real
  and the product with `1/√v` is the quotient by `√v`.

  The kernel's result array as one function of the arguments is read off its generated frame run block by block
  (Proof/KernelValue.lean); the reference's run through its three nested calls is Proof/RefRun.lean and its result read
  at an entry Proof/RefRead.lean; the precondition is read back in Proof/PreDecode.lean; the real-number law is
  Proof/Law.lean and its use on whole arrays Proof/Bridge.lean.
-/
import proofs.«123261_j45191645888570_2_alg».proof.Defs
import proofs.«123261_j45191645888570_2_alg».proof.Proof.Gen.Kernel
import proofs.«123261_j45191645888570_2_alg».proof.Proof.Gen.Kernel.Skeleton
import proofs.«123261_j45191645888570_2_alg».proof.Proof.Gen.Kernel.Launch
import proofs.«123261_j45191645888570_2_alg».proof.Proof.Gen.Kernel.Points
import proofs.«123261_j45191645888570_2_alg».proof.Proof.Gen.Kernel.Frame
import proofs.«123261_j45191645888570_2_alg».proof.Proof.Gen.KernelIdeal
import proofs.«123261_j45191645888570_2_alg».proof.Proof.Gen.KernelIdeal.Skeleton
import proofs.«123261_j45191645888570_2_alg».proof.Proof.Gen.KernelIdeal.Launch
import proofs.«123261_j45191645888570_2_alg».proof.Proof.Gen.KernelIdeal.Points
import proofs.«123261_j45191645888570_2_alg».proof.Proof.Gen.KernelIdeal.Frame
import proofs.«123261_j45191645888570_2_alg».proof.Proof.Gen.KernelIdeal.Value
import proofs.«123261_j45191645888570_2_alg».proof.Proof.Gen.ReferenceIdeal
import proofs.«123261_j45191645888570_2_alg».proof.Proof.Gen.Pre_finite_inputs
import proofs.«123261_j45191645888570_2_alg».proof.Proof.KernelValue
import proofs.«123261_j45191645888570_2_alg».proof.Proof.RefRun
import proofs.«123261_j45191645888570_2_alg».proof.Proof.RefRead
import proofs.«123261_j45191645888570_2_alg».proof.Proof.Bridge
import Idealize.ShloMosaic.Adequacy
import Idealize.ShloMosaic.Init

noncomputable section

namespace Cert.Proof

open Idealize.ShloMosaic Idealize.SL.Sem

/-- The word-level kernel runs and leaves its arguments as they were: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments, the kernel's result array is the single-pass formula of the arguments
    and the reference's the two-pass formula of the same arguments; under the precondition they are one array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefRead.refTerm_eq]
  exact (Cert.ContextNorm.arr_eq _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
